-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S1024x1024 : Shape := ⟨2, ![1024, 1024]⟩
abbrev S4096 : Shape := ⟨1, ![4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S1024x1024 .f32) (main_arg5 : FVec F S4096 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S8x2048x4096 .f32) (main_arg1 : FVec F S1024x1024 .f32) (main_arg2 : FVec F S1024x1024 .f32) (main_arg3 : FVec F S1024x1024 .f32) (main_arg4 : FVec F S1024x1024 .f32) (main_arg5 : FVec F S4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S8x2048x4096 : Shape := ⟨3, ![8, 2048, 4096]⟩
abbrev S1024x1024 : Shape := ⟨2, ![1024, 1024]⟩
abbrev S4096 : Shape := ⟨1, ![4096]⟩
abbrev S4096x1024 : Shape := ⟨2, ![4096, 1024]⟩
abbrev S4096x4096 : Shape := ⟨2, ![4096, 4096]⟩
abbrev S16384x4096 : Shape := ⟨2, ![16384, 4096]⟩
abbrev S1024x512 : Shape := ⟨2, ![1024, 512]⟩
abbrev S512x2048 : Shape := ⟨2, ![512, 2048]⟩
abbrev S1024x2048 : Shape := ⟨2, ![1024, 2048]⟩
abbrev S1x1x4096 : Shape := ⟨3, ![1, 1, 4096]⟩

abbrev nBuf : Space → Nat
  | .hbm => 24
  | .vmem => 6
  | .smem => 0
  | _ => 0

abbrev bufTy : (tb : Table) → Fin (tcTables nBuf tb) → BufTy
  | .hbm, ⟨0, _⟩ => ⟨S8x2048x4096, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S4096, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S4096x1024, .f32⟩
  | .hbm, ⟨10, _⟩ => ⟨S1024x1024, .f32⟩
  | .hbm, ⟨11, _⟩ => ⟨S4096x1024, .f32⟩
  | .hbm, ⟨12, _⟩ => ⟨S1024x1024, .f32⟩
  | .hbm, ⟨13, _⟩ => ⟨S4096x1024, .f32⟩
  | .hbm, ⟨14, _⟩ => ⟨S1024x1024, .f32⟩
  | .hbm, ⟨15, _⟩ => ⟨S4096x1024, .f32⟩
  | .hbm, ⟨16, _⟩ => ⟨S4096x4096, .f32⟩
  | .hbm, ⟨17, _⟩ => ⟨S4096x4096, .bf16⟩
  | .hbm, ⟨18, _⟩ => ⟨S16384x4096, .f32⟩
  | .hbm, ⟨19, _⟩ => ⟨S16384x4096, .f32⟩
  | .hbm, ⟨20, _⟩ => ⟨S8x2048x4096, .f32⟩
  | .hbm, ⟨21, _⟩ => ⟨S1x1x4096, .f32⟩
  | .hbm, ⟨22, _⟩ => ⟨S8x2048x4096, .f32⟩
  | .hbm, ⟨23, _⟩ => ⟨S8x2048x4096, .f32⟩
  | .local _ .vmem, ⟨0, _⟩ => ⟨S1024x512, .f32⟩
  | .local _ .vmem, ⟨1, _⟩ => ⟨S1024x512, .f32⟩
  | .local _ .vmem, ⟨2, _⟩ => ⟨S512x2048, .bf16⟩
  | .local _ .vmem, ⟨3, _⟩ => ⟨S512x2048, .bf16⟩
  | .local _ .vmem, ⟨4, _⟩ => ⟨S1024x2048, .f32⟩
  | .local _ .vmem, ⟨5, _⟩ => ⟨S1024x2048, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  concatenates_S1024x1024_S1024x1024_S1024x1024_S1024x1024_S4096x1024_d0 : Shape.Concatenates [S1024x1024, S1024x1024, S1024x1024, S1024x1024] S4096x1024 0
  concatenates_S4096x1024_S4096x1024_S4096x1024_S4096x1024_S4096x4096_d1 : Shape.Concatenates [S4096x1024, S4096x1024, S4096x1024, S4096x1024] S4096x4096 1
  bitsLt_bf16_f32 : FTy.bits .bf16 < FTy.bits .f32
  shapeCasts_S8x2048x4096_S16384x4096 : S8x2048x4096.ShapeCasts S16384x4096
  inb_S1024x2048_S1024x2048_0_0 : ∀ a, (![0, 0] : Fin 2 → Nat) a + S1024x2048.size a ≤ S1024x2048.size a
  h_S1024x2048 : 0 < S1024x2048.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  shapeCasts_S1024x2048_S1024x2048 : S1024x2048.ShapeCasts S1024x2048
  shapeCasts_S16384x4096_S8x2048x4096 : S16384x4096.ShapeCasts S8x2048x4096
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  dot_S1024x512_S512x2048_S1024x2048_1_0_0_1_n_n_wf : DotDims.WF S1024x512 S512x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x4096.size a
  hwx0_0 : ∀ i : grid0.Coords, EltTy.bits .f32 = 32 ∨ (Rect.block (s := S16384x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x4096.size a
  hwx0_1 : ∀ i : grid0.Coords, EltTy.bits .bf16 = 32 ∨ (Rect.block (s := S4096x4096) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S16384x4096.size a
  hwx0_2 : ∀ i : grid0.Coords, EltTy.bits .f32 = 32 ∨ (Rect.block (s := S16384x4096) S1024x2048.size (cc0_transform_2 i) (hinb0_2 i)).WholeWords (EltTy.packing .f32)

variable [Facts₀]

def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf

abbrev win0_0 : Pipeline.Window sig grid0 :=
  Pipeline.Window.ofSpec (Memref.whole main_v12) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x4096 : Shape := ⟨3, ![8, 2048, 4096]⟩
abbrev S1024x1024 : Shape := ⟨2, ![1024, 1024]⟩
abbrev S4096 : Shape := ⟨1, ![4096]⟩
abbrev S4096x1024 : Shape := ⟨2, ![4096, 1024]⟩
abbrev S4096x4096 : Shape := ⟨2, ![4096, 4096]⟩
abbrev S1x1x4096 : Shape := ⟨3, ![1, 1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S4096, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S4096x1024, .f32⟩
  | .hbm, ⟨10, _⟩ => ⟨S1024x1024, .f32⟩
  | .hbm, ⟨11, _⟩ => ⟨S4096x1024, .f32⟩
  | .hbm, ⟨12, _⟩ => ⟨S1024x1024, .f32⟩
  | .hbm, ⟨13, _⟩ => ⟨S4096x1024, .f32⟩
  | .hbm, ⟨14, _⟩ => ⟨S1024x1024, .f32⟩
  | .hbm, ⟨15, _⟩ => ⟨S4096x1024, .f32⟩
  | .hbm, ⟨16, _⟩ => ⟨S4096x4096, .f32⟩
  | .hbm, ⟨17, _⟩ => ⟨S8x2048x4096, .f32⟩
  | .hbm, ⟨18, _⟩ => ⟨S1x1x4096, .f32⟩
  | .hbm, ⟨19, _⟩ => ⟨S8x2048x4096, .f32⟩
  | .hbm, ⟨20, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  concatenates_S1024x1024_S1024x1024_S1024x1024_S1024x1024_S4096x1024_d0 : Shape.Concatenates [S1024x1024, S1024x1024, S1024x1024, S1024x1024] S4096x1024 0
  concatenates_S4096x1024_S4096x1024_S4096x1024_S4096x1024_S4096x4096_d1 : Shape.Concatenates [S4096x1024, S4096x1024, S4096x1024, S4096x1024] S4096x4096 1
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  dot_S8x2048x4096_S4096x4096_S8x2048x4096_2_0_01_1_n_n_wf : DotDims.WF S8x2048x4096 S4096x4096 S8x2048x4096 [2] [0] [0, 1] [1] [] []

variable [Facts₀]

def dot_S8x2048x4096_S4096x4096_S8x2048x4096_2_0_01_1_n_n : DotDims S8x2048x4096 S4096x4096 S8x2048x4096 where
  lhsContracting := [2]
  rhsContracting := [0]
  lhsNonContracting := [0, 1]
  rhsNonContracting := [1]
  lhsBatch := []
  rhsBatch := []
  wf := dot_S8x2048x4096_S4096x4096_S8x2048x4096_2_0_01_1_n_n_wf

class Facts : Prop extends Facts₀ where

variable [Facts]
-- ==== Proof.AroundK.lean ====
/-
  @main around the matmul region. Before the region the host negates three of the four weight blocks, joins the
  blocks into the 4096×4096 Hamilton weight (five concatenations), rounds it to bf16 and flattens the activations
  to 16384×4096; after it the host restores the batch axis and adds the bias. None of these lines writes an
  argument array, so the arguments are found by the region, and left at the end, as launched. Here: the buffer
  contents at the region's entry as the fold of the earlier lines, @main reduced to the region continued by the
  later lines, each window's block at a grid point, and the frame claim's post read off the frame run's.
  The body's only branch tests the last grid coordinate (the position along the contracted axis) against zero.
-/
import proofs.«129058_j64347200028815_2_alg».proof.Proof.Gen.Kernel.Launch
import proofs.«129058_j64347200028815_2_alg».proof.Proof.Gen.Kernel.Skeleton
import proofs.«129058_j64347200028815_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Acc

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the earlier host lines, the region, the later host lines: it reduces to the region continued by the
    later lines, the buffers held at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later lines touch only the pipeline's arrays and the buffers that bypass the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And they write none of the three arrays the region stages (each writes its own result buffer). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 0 either: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 1 either: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 2 either: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 3 either: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 4 either: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 5 either: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The activations' staging buffer holds the point's block of the flattened activations at every point, for any
    proof data over `V` whose body leaves that block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the weight's staging buffer. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a frame run to the frame claim: no window stages an argument array, so each argument is one of the
    buffers that bypass the region, found at the end as the later lines leave it: as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c)⟩) h

/-! ## The body's branch -/

/-- The body's one condition: the grid's last coordinate (the position along the contracted axis) is zero. -/
abbrev cond0_0 (i : grid0.Coords) : Prop := (Scalar.cmpi .ne (Scalar.extui (Scalar.cmpi .eq (BitVec.ofNat 32 (i 2).val) 0#32)) 0#32) = 1#1
/-- It holds at the first of every eight consecutive points. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The staging memrefs the body is called with -/

/-- One staging buffer of the output window, through which its contents are stated. -/
abbrev VO0_2 : View sig .tc .vmem S1024x2048 .f32 := (Memref.whole cc0_stg2_0 : Memref sig .tc .vmem S1024x2048 .f32).view
abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2048 .f32 := win0_2.stage (cfg0.slots t 2)
abbrev hs0_2 (t : Fin cfg0.N) : (ms0_2 t).IsWhole := hstage0_2 ((cfg0.slots t 2).cast nbuf0_2)

end Cert.Kernel.Acc

end
-- ==== Proof.FirstStepK.lean ====
/-
  The matmul body at a point where the position along the contracted axis is zero: it clears the output block,
  then adds the product of the point's activation block and weight block to it. Run on whole staging buffers —
  the two inputs at their contents, the output's at anything — it hands them back with the inputs as they were
  and the output's buffer holding the body's stores, listed as pieces (last store first).
-/
import proofs.«129058_j64347200028815_2_alg».proof.Proof.AroundK

set_option maxRecDepth 16384

noncomputable section

namespace Cert.Kernel.Acc

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's stores into the output block at such a point, with the proof that the body runs to its continuation
    holding the inputs as they were and the output's buffer with those stores written. -/
noncomputable def kernelRun0_A (c : Dev nD) (i : grid0.Coords) (arg3 : Memref sig .tc .vmem S1024x512 .f32) (harg3 : arg3.IsWhole) (arg4 : Memref sig .tc .vmem S512x2048 .bf16) (harg4 : arg4.IsWhole) (arg5 : Memref sig .tc .vmem S1024x2048 .f32) (harg5 : arg5.IsWhole) (hc0 : cond0_0 i)
    (x0 : Vec F S1024x512 .f32) (x1 : Vec F S512x2048 .bf16) :
    { L2 : List (View.Piece (Elt F) S1024x2048 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2)) -∗ K ⟨⟩))
          ⊢ wp frame (wpE (defs₀ (F := F)) Variants.none c none) E (cc0__matmul_kernel i arg3 harg3 arg4 harg4 arg5 harg5) K } := by
  refine ⟨?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    iexists _; iexact H2

end Cert.Kernel.Acc

end
-- ==== Proof.LaterStepK.lean ====
/-
  The matmul body at a point where the position along the contracted axis is not zero: it adds the product of the
  point's activation block and weight block to what the output block already holds. Run on whole staging buffers —
  the two inputs and the output's at their contents — it hands them back with the inputs as they were and the
  output's buffer holding the body's one store, listed as a piece.
-/
import proofs.«129058_j64347200028815_2_alg».proof.Proof.FirstStepK

set_option maxRecDepth 16384

noncomputable section

namespace Cert.Kernel.Acc

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's store into the output block at such a point, with the proof that the body runs to its continuation
    holding the inputs as they were and the output's buffer with that store written. -/
noncomputable def kernelRun0_B (c : Dev nD) (i : grid0.Coords) (arg3 : Memref sig .tc .vmem S1024x512 .f32) (harg3 : arg3.IsWhole) (arg4 : Memref sig .tc .vmem S512x2048 .bf16) (harg4 : arg4.IsWhole) (arg5 : Memref sig .tc .vmem S1024x2048 .f32) (harg5 : arg5.IsWhole) (hc0 : ¬cond0_0 i)
    (x0 : Vec F S1024x512 .f32) (x1 : Vec F S512x2048 .bf16) (xo2 : Vec F S1024x2048 .f32) :
    { L2 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare xo2
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2)) -∗ K ⟨⟩))
          ⊢ wp frame (wpE (defs₀ (F := F)) Variants.none c none) E (cc0__matmul_kernel i arg3 harg3 arg4 harg4 arg5 harg5) K } := by
  refine ⟨?_, fun E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    iexists _; iexact H2

end Cert.Kernel.Acc

end
-- ==== Proof.AccumFrameK.lean ====
/-
  The matmul region as a frame run. The output block of a grid point (i, j, kb) is accumulated in place over the
  last grid axis: cleared and first added to at kb = 0, added to at every later kb, written back after kb = 7.
  What the output's staging buffer holds after each point is therefore a recursion on the point: the stores of the
  point's case, read back, over what the point before left whenever kb is not 0 (the buffer is not written back in
  between). With the two inputs' buffers at their blocks, this is the pipeline's proof data; the body's runs in the
  two cases give the body obligation at every point, and the launch theorem gives the run of @main: every array
  the region stages at what the proof data computes, every other buffer as the later host lines leave it.
-/
import proofs.«129058_j64347200028815_2_alg».proof.Proof.LaterStepK

set_option maxRecDepth 16384

noncomputable section

namespace Cert.Kernel.Acc

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stores of a point with kb = 0 cover the output block. -/
theorem cover0_A_2 (c : Dev nD) (i : grid0.Coords) (arg3 : Memref sig .tc .vmem S1024x512 .f32) (harg3 : arg3.IsWhole) (arg4 : Memref sig .tc .vmem S512x2048 .bf16) (harg4 : arg4.IsWhole) (arg5 : Memref sig .tc .vmem S1024x2048 .f32) (harg5 : arg5.IsWhole) (hc0 : cond0_0 i)
    (x0 : Vec F S1024x512 .f32) (x1 : Vec F S512x2048 .bf16) (y : S1024x2048.Idx) :
    ∃ pc ∈ (kernelRun0_A c i arg3 harg3 arg4 harg4 arg5 harg5 hc0 x0 x1).1, y ∈ pc.1.set :=
  View.cover_of_tiledL (kernelRun0_A c i arg3 harg3 arg4 harg4 arg5 harg5 hc0 x0 x1).1 S1024x2048.size (by sl_kernel_rfl) y

/-- What a point with kb = 0 leaves in the output's staging buffer: its stores read back. -/
def out0_A_2 (c : Dev nD) (i : grid0.Coords) (arg3 : Memref sig .tc .vmem S1024x512 .f32) (harg3 : arg3.IsWhole) (arg4 : Memref sig .tc .vmem S512x2048 .bf16) (harg4 : arg4.IsWhole) (arg5 : Memref sig .tc .vmem S1024x2048 .f32) (harg5 : arg5.IsWhole) (hc0 : cond0_0 i)
    (x0 : Vec F S1024x512 .f32) (x1 : Vec F S512x2048 .bf16) : Vec F S1024x2048 .f32 :=
  VO0_2.read (Elt F) (VO0_2.writes (Elt F) VO0_2.junk (kernelRun0_A c i arg3 harg3 arg4 harg4 arg5 harg5 hc0 x0 x1).1)

/-- The store of a point with kb ≠ 0 covers the output block. -/
theorem cover0_B_2 (c : Dev nD) (i : grid0.Coords) (arg3 : Memref sig .tc .vmem S1024x512 .f32) (harg3 : arg3.IsWhole) (arg4 : Memref sig .tc .vmem S512x2048 .bf16) (harg4 : arg4.IsWhole) (arg5 : Memref sig .tc .vmem S1024x2048 .f32) (harg5 : arg5.IsWhole) (hc0 : ¬cond0_0 i)
    (x0 : Vec F S1024x512 .f32) (x1 : Vec F S512x2048 .bf16) (xo2 : Vec F S1024x2048 .f32) (y : S1024x2048.Idx) :
    ∃ pc ∈ (kernelRun0_B c i arg3 harg3 arg4 harg4 arg5 harg5 hc0 x0 x1 xo2).1, y ∈ pc.1.set :=
  View.cover_of_tiledL (kernelRun0_B c i arg3 harg3 arg4 harg4 arg5 harg5 hc0 x0 x1 xo2).1 S1024x2048.size (by sl_kernel_rfl) y

/-- What a point with kb ≠ 0 leaves in the output's staging buffer, over what it found there: its store read back. -/
def out0_B_2 (c : Dev nD) (i : grid0.Coords) (arg3 : Memref sig .tc .vmem S1024x512 .f32) (harg3 : arg3.IsWhole) (arg4 : Memref sig .tc .vmem S512x2048 .bf16) (harg4 : arg4.IsWhole) (arg5 : Memref sig .tc .vmem S1024x2048 .f32) (harg5 : arg5.IsWhole) (hc0 : ¬cond0_0 i)
    (x0 : Vec F S1024x512 .f32) (x1 : Vec F S512x2048 .bf16) (xo2 : Vec F S1024x2048 .f32) : Vec F S1024x2048 .f32 :=
  VO0_2.read (Elt F) (VO0_2.writes (Elt F) VO0_2.junk (kernelRun0_B c i arg3 harg3 arg4 harg4 arg5 harg5 hc0 x0 x1 xo2).1)

/-! ## What the output block holds after each point -/

/-- The accumulation: after the point at position `n`, the output's staging buffer holds the stores of the point's
    case over the point's two input blocks — and, when kb ≠ 0, over what position `n - 1` left. -/
def outsAt0 (c : Dev nD) : (n : ℕ) → n < cfg0.N → Vec F S1024x2048 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk m c 0 ⟨0, hn⟩) (iblk m c 1 ⟨0, hn⟩)
  | n + 1, hn =>
    if h0 : (n + 1) % 8 = 0 then
      out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk m c 0 ⟨n + 1, hn⟩) (iblk m c 1 ⟨n + 1, hn⟩)
    else
      out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn))

/-- At a point with kb = 0. -/
theorem outsAt0_A (c : Dev nD) (t : Fin cfg0.N) (h0 : t.val % 8 = 0) :
    outsAt0 m c t.val t.isLt = out0_A_2 c (grid0.coords t) (ms0_0 t) (hs0_0 t) (ms0_1 t) (hs0_1 t) (ms0_2 t) (hs0_2 t) ((hcond0_0 t).mpr h0) (iblk m c 0 t) (iblk m c 1 t) := by
  obtain ⟨n, hn⟩ := t
  cases n with
  | zero => exact rfl
  | succ n => exact (dif_pos h0).trans rfl

/-- At a point with kb ≠ 0: over what the point before left. -/
theorem outsAt0_B (c : Dev nD) (t : Fin cfg0.N) (h0 : ¬t.val % 8 = 0) :
    outsAt0 m c t.val t.isLt = out0_B_2 c (grid0.coords t) (ms0_0 t) (hs0_0 t) (ms0_1 t) (hs0_1 t) (ms0_2 t) (hs0_2 t) (fun h => h0 ((hcond0_0 t).mp h)) (iblk m c 0 t) (iblk m c 1 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at a point each input's buffer at its block and the
    output's at `outsAt0`; nothing else held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At a point with kb ≠ 0 the output's current staging buffer holds what the body left at the point before: the
    buffer is written back only after kb = 7. -/
theorem before0_2_B (c : Dev nD) (t : Fin cfg0.N) (h0 : ¬t.val % 8 = 0) (d) :
    (dats m 0 c).before 2 t d = (outsAt0 m c (t.val - 1) (Nat.lt_of_le_of_lt (Nat.sub_le _ _) t.isLt)) := by
  have hN : t.val < 256 := lt_of_lt_of_eq t.isLt (show cfg0.N = 256 from N_0)
  rw [Dat.before_out_kept _ 2 rfl t (by omega) (Bool.eq_false_iff.mpr fun h => by have := (flush0_2 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 800000 in
/-- The body at any point: the inputs' buffers hold their blocks; kb = 0 or not decides the case; when kb ≠ 0 the
    output's buffer holds what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  have hN : t.val < 256 := lt_of_lt_of_eq t.isLt (show cfg0.N = 256 from N_0)
  by_cases h0 : t.val % 8 = 0
  · rw [outsAt0_A m c t h0]
    unfold out0_A_2
    iintro ⟨HΦ, Ho, ⟨%d0, H0⟩, ⟨%d1, H1⟩, ⟨%d2, H2⟩⟩
    iapply ((kernelRun0_A c (grid0.coords t) _ _ _ _ _ _ ((hcond0_0 t).mpr h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _)
  · rw [outsAt0_B m c t h0]
    simp only [before0_2_B m c t h0]
    unfold out0_B_2
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _)

/-- The body obligation at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, every array the region stages ends at what the proof data
    computes, every other buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to the end, faults nowhere, and leaves its six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (run_main m ρ)

end Cert.Kernel.Acc

end
-- ==== Proof.AroundI.lean ====
/-
  @main around the matmul region. Before the region the host negates three of the four weight blocks, joins the
  blocks into the 4096×4096 Hamilton weight (five concatenations), rounds it to bf16 and flattens the activations
  to 16384×4096; after it the host restores the batch axis and adds the bias. None of these lines writes an
  argument array, so the arguments are found by the region, and left at the end, as launched. Here: the buffer
  contents at the region's entry as the fold of the earlier lines, @main reduced to the region continued by the
  later lines, each window's block at a grid point, and the frame claim's post read off the frame run's.
  The body's only branch tests the last grid coordinate (the position along the contracted axis) against zero.
-/
import proofs.«129058_j64347200028815_2_alg».proof.Proof.Gen.KernelIdeal.Launch
import proofs.«129058_j64347200028815_2_alg».proof.Proof.Gen.KernelIdeal.Skeleton
import proofs.«129058_j64347200028815_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Acc

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the earlier host lines, the region, the later host lines: it reduces to the region continued by the
    later lines, the buffers held at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later lines touch only the pipeline's arrays and the buffers that bypass the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And they write none of the three arrays the region stages (each writes its own result buffer). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 0 either: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 1 either: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 2 either: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 3 either: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 4 either: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 5 either: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The activations' staging buffer holds the point's block of the flattened activations at every point, for any
    proof data over `V` whose body leaves that block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the weight's staging buffer. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a frame run to the frame claim: no window stages an argument array, so each argument is one of the
    buffers that bypass the region, found at the end as the later lines leave it: as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c)⟩) h

/-! ## The body's branch -/

/-- The body's one condition: the grid's last coordinate (the position along the contracted axis) is zero. -/
abbrev cond0_0 (i : grid0.Coords) : Prop := (Scalar.cmpi .ne (Scalar.extui (Scalar.cmpi .eq (BitVec.ofNat 32 (i 2).val) 0#32)) 0#32) = 1#1
/-- It holds at the first of every eight consecutive points. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The staging memrefs the body is called with -/

/-- One staging buffer of the output window, through which its contents are stated. -/
abbrev VO0_2 : View sig .tc .vmem S1024x2048 .f32 := (Memref.whole cc0_stg2_0 : Memref sig .tc .vmem S1024x2048 .f32).view
abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2048 .f32 := win0_2.stage (cfg0.slots t 2)
abbrev hs0_2 (t : Fin cfg0.N) : (ms0_2 t).IsWhole := hstage0_2 ((cfg0.slots t 2).cast nbuf0_2)

end Cert.KernelIdeal.Acc

end
-- ==== Proof.FirstStepI.lean ====
/-
  The matmul body at a point where the position along the contracted axis is zero: it clears the output block,
  then adds the product of the point's activation block and weight block to it. Run on whole staging buffers —
  the two inputs at their contents, the output's at anything — it hands them back with the inputs as they were
  and the output's buffer holding the body's stores, listed as pieces (last store first).
-/
import proofs.«129058_j64347200028815_2_alg».proof.Proof.AroundI

set_option maxRecDepth 16384

noncomputable section

namespace Cert.KernelIdeal.Acc

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's stores into the output block at such a point, with the proof that the body runs to its continuation
    holding the inputs as they were and the output's buffer with those stores written. -/
noncomputable def kernelRun0_A (c : Dev nD) (i : grid0.Coords) (arg3 : Memref sig .tc .vmem S1024x512 .f32) (harg3 : arg3.IsWhole) (arg4 : Memref sig .tc .vmem S512x2048 .bf16) (harg4 : arg4.IsWhole) (arg5 : Memref sig .tc .vmem S1024x2048 .f32) (harg5 : arg5.IsWhole) (hc0 : cond0_0 i)
    (x0 : Vec F S1024x512 .f32) (x1 : Vec F S512x2048 .bf16) :
    { L2 : List (View.Piece (Elt F) S1024x2048 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2)) -∗ K ⟨⟩))
          ⊢ wp frame (wpE (defs₀ (F := F)) Variants.none c none) E (cc0__matmul_kernel i arg3 harg3 arg4 harg4 arg5 harg5) K } := by
  refine ⟨?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    iexists _; iexact H2

end Cert.KernelIdeal.Acc

end
-- ==== Proof.LaterStepI.lean ====
/-
  The matmul body at a point where the position along the contracted axis is not zero: it adds the product of the
  point's activation block and weight block to what the output block already holds. Run on whole staging buffers —
  the two inputs and the output's at their contents — it hands them back with the inputs as they were and the
  output's buffer holding the body's one store, listed as a piece.
-/
import proofs.«129058_j64347200028815_2_alg».proof.Proof.FirstStepI

set_option maxRecDepth 16384

noncomputable section

namespace Cert.KernelIdeal.Acc

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's store into the output block at such a point, with the proof that the body runs to its continuation
    holding the inputs as they were and the output's buffer with that store written. -/
noncomputable def kernelRun0_B (c : Dev nD) (i : grid0.Coords) (arg3 : Memref sig .tc .vmem S1024x512 .f32) (harg3 : arg3.IsWhole) (arg4 : Memref sig .tc .vmem S512x2048 .bf16) (harg4 : arg4.IsWhole) (arg5 : Memref sig .tc .vmem S1024x2048 .f32) (harg5 : arg5.IsWhole) (hc0 : ¬cond0_0 i)
    (x0 : Vec F S1024x512 .f32) (x1 : Vec F S512x2048 .bf16) (xo2 : Vec F S1024x2048 .f32) :
    { L2 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare xo2
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2)) -∗ K ⟨⟩))
          ⊢ wp frame (wpE (defs₀ (F := F)) Variants.none c none) E (cc0__matmul_kernel i arg3 harg3 arg4 harg4 arg5 harg5) K } := by
  refine ⟨?_, fun E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    iexists _; iexact H2

end Cert.KernelIdeal.Acc

end
-- ==== Proof.AccumFrameI.lean ====
/-
  The matmul region as a frame run. The output block of a grid point (i, j, kb) is accumulated in place over the
  last grid axis: cleared and first added to at kb = 0, added to at every later kb, written back after kb = 7.
  What the output's staging buffer holds after each point is therefore a recursion on the point: the stores of the
  point's case, read back, over what the point before left whenever kb is not 0 (the buffer is not written back in
  between). With the two inputs' buffers at their blocks, this is the pipeline's proof data; the body's runs in the
  two cases give the body obligation at every point, and the launch theorem gives the run of @main: every array
  the region stages at what the proof data computes, every other buffer as the later host lines leave it.
-/
import proofs.«129058_j64347200028815_2_alg».proof.Proof.LaterStepI

set_option maxRecDepth 16384

noncomputable section

namespace Cert.KernelIdeal.Acc

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stores of a point with kb = 0 cover the output block. -/
theorem cover0_A_2 (c : Dev nD) (i : grid0.Coords) (arg3 : Memref sig .tc .vmem S1024x512 .f32) (harg3 : arg3.IsWhole) (arg4 : Memref sig .tc .vmem S512x2048 .bf16) (harg4 : arg4.IsWhole) (arg5 : Memref sig .tc .vmem S1024x2048 .f32) (harg5 : arg5.IsWhole) (hc0 : cond0_0 i)
    (x0 : Vec F S1024x512 .f32) (x1 : Vec F S512x2048 .bf16) (y : S1024x2048.Idx) :
    ∃ pc ∈ (kernelRun0_A c i arg3 harg3 arg4 harg4 arg5 harg5 hc0 x0 x1).1, y ∈ pc.1.set :=
  View.cover_of_tiledL (kernelRun0_A c i arg3 harg3 arg4 harg4 arg5 harg5 hc0 x0 x1).1 S1024x2048.size (by sl_kernel_rfl) y

/-- What a point with kb = 0 leaves in the output's staging buffer: its stores read back. -/
def out0_A_2 (c : Dev nD) (i : grid0.Coords) (arg3 : Memref sig .tc .vmem S1024x512 .f32) (harg3 : arg3.IsWhole) (arg4 : Memref sig .tc .vmem S512x2048 .bf16) (harg4 : arg4.IsWhole) (arg5 : Memref sig .tc .vmem S1024x2048 .f32) (harg5 : arg5.IsWhole) (hc0 : cond0_0 i)
    (x0 : Vec F S1024x512 .f32) (x1 : Vec F S512x2048 .bf16) : Vec F S1024x2048 .f32 :=
  VO0_2.read (Elt F) (VO0_2.writes (Elt F) VO0_2.junk (kernelRun0_A c i arg3 harg3 arg4 harg4 arg5 harg5 hc0 x0 x1).1)

/-- The store of a point with kb ≠ 0 covers the output block. -/
theorem cover0_B_2 (c : Dev nD) (i : grid0.Coords) (arg3 : Memref sig .tc .vmem S1024x512 .f32) (harg3 : arg3.IsWhole) (arg4 : Memref sig .tc .vmem S512x2048 .bf16) (harg4 : arg4.IsWhole) (arg5 : Memref sig .tc .vmem S1024x2048 .f32) (harg5 : arg5.IsWhole) (hc0 : ¬cond0_0 i)
    (x0 : Vec F S1024x512 .f32) (x1 : Vec F S512x2048 .bf16) (xo2 : Vec F S1024x2048 .f32) (y : S1024x2048.Idx) :
    ∃ pc ∈ (kernelRun0_B c i arg3 harg3 arg4 harg4 arg5 harg5 hc0 x0 x1 xo2).1, y ∈ pc.1.set :=
  View.cover_of_tiledL (kernelRun0_B c i arg3 harg3 arg4 harg4 arg5 harg5 hc0 x0 x1 xo2).1 S1024x2048.size (by sl_kernel_rfl) y

/-- What a point with kb ≠ 0 leaves in the output's staging buffer, over what it found there: its store read back. -/
def out0_B_2 (c : Dev nD) (i : grid0.Coords) (arg3 : Memref sig .tc .vmem S1024x512 .f32) (harg3 : arg3.IsWhole) (arg4 : Memref sig .tc .vmem S512x2048 .bf16) (harg4 : arg4.IsWhole) (arg5 : Memref sig .tc .vmem S1024x2048 .f32) (harg5 : arg5.IsWhole) (hc0 : ¬cond0_0 i)
    (x0 : Vec F S1024x512 .f32) (x1 : Vec F S512x2048 .bf16) (xo2 : Vec F S1024x2048 .f32) : Vec F S1024x2048 .f32 :=
  VO0_2.read (Elt F) (VO0_2.writes (Elt F) VO0_2.junk (kernelRun0_B c i arg3 harg3 arg4 harg4 arg5 harg5 hc0 x0 x1 xo2).1)

/-! ## What the output block holds after each point -/

/-- The accumulation: after the point at position `n`, the output's staging buffer holds the stores of the point's
    case over the point's two input blocks — and, when kb ≠ 0, over what position `n - 1` left. -/
def outsAt0 (c : Dev nD) : (n : ℕ) → n < cfg0.N → Vec F S1024x2048 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk m c 0 ⟨0, hn⟩) (iblk m c 1 ⟨0, hn⟩)
  | n + 1, hn =>
    if h0 : (n + 1) % 8 = 0 then
      out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk m c 0 ⟨n + 1, hn⟩) (iblk m c 1 ⟨n + 1, hn⟩)
    else
      out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn))

/-- At a point with kb = 0. -/
theorem outsAt0_A (c : Dev nD) (t : Fin cfg0.N) (h0 : t.val % 8 = 0) :
    outsAt0 m c t.val t.isLt = out0_A_2 c (grid0.coords t) (ms0_0 t) (hs0_0 t) (ms0_1 t) (hs0_1 t) (ms0_2 t) (hs0_2 t) ((hcond0_0 t).mpr h0) (iblk m c 0 t) (iblk m c 1 t) := by
  obtain ⟨n, hn⟩ := t
  cases n with
  | zero => exact rfl
  | succ n => exact (dif_pos h0).trans rfl

/-- At a point with kb ≠ 0: over what the point before left. -/
theorem outsAt0_B (c : Dev nD) (t : Fin cfg0.N) (h0 : ¬t.val % 8 = 0) :
    outsAt0 m c t.val t.isLt = out0_B_2 c (grid0.coords t) (ms0_0 t) (hs0_0 t) (ms0_1 t) (hs0_1 t) (ms0_2 t) (hs0_2 t) (fun h => h0 ((hcond0_0 t).mp h)) (iblk m c 0 t) (iblk m c 1 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at a point each input's buffer at its block and the
    output's at `outsAt0`; nothing else held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At a point with kb ≠ 0 the output's current staging buffer holds what the body left at the point before: the
    buffer is written back only after kb = 7. -/
theorem before0_2_B (c : Dev nD) (t : Fin cfg0.N) (h0 : ¬t.val % 8 = 0) (d) :
    (dats m 0 c).before 2 t d = (outsAt0 m c (t.val - 1) (Nat.lt_of_le_of_lt (Nat.sub_le _ _) t.isLt)) := by
  have hN : t.val < 256 := lt_of_lt_of_eq t.isLt (show cfg0.N = 256 from N_0)
  rw [Dat.before_out_kept _ 2 rfl t (by omega) (Bool.eq_false_iff.mpr fun h => by have := (flush0_2 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 800000 in
/-- The body at any point: the inputs' buffers hold their blocks; kb = 0 or not decides the case; when kb ≠ 0 the
    output's buffer holds what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  have hN : t.val < 256 := lt_of_lt_of_eq t.isLt (show cfg0.N = 256 from N_0)
  by_cases h0 : t.val % 8 = 0
  · rw [outsAt0_A m c t h0]
    unfold out0_A_2
    iintro ⟨HΦ, Ho, ⟨%d0, H0⟩, ⟨%d1, H1⟩, ⟨%d2, H2⟩⟩
    iapply ((kernelRun0_A c (grid0.coords t) _ _ _ _ _ _ ((hcond0_0 t).mpr h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _)
  · rw [outsAt0_B m c t h0]
    simp only [before0_2_B m c t h0]
    unfold out0_B_2
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _)

/-- The body obligation at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, every array the region stages ends at what the proof data
    computes, every other buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to the end, faults nowhere, and leaves its six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (run_main m ρ)

end Cert.KernelIdeal.Acc

end
-- ==== Proof.StepValue.lean ====
/-
  The two cases of the matmul body as values. The stores a point leaves in the output block, read back, are one
  whole-block value: at a point with kb ≠ 0 the sum of what the block held and the product of the point's two input
  blocks; at a point with kb = 0 the same over the zero block the body has just stored.
-/
import proofs.«129058_j64347200028815_2_alg».proof.Proof.AccumFrameI
import Idealize.ShloMosaic.Lib.Pipeline.Value

set_option maxRecDepth 16384

noncomputable section

namespace Cert.KernelIdeal.AccValue

open Cert.KernelIdeal Cert.KernelIdeal.Gen Cert.KernelIdeal.Acc
open Idealize.ShloMosaic Idealize.ShloMosaic.TcCoe Idealize.ShloMosaic.Tactic Idealize.SL.Sem
open Idealize.ShloMosaic.Pipeline (Dat)

variable {F : FTy → Type} [FloatOps F]

theorem hz : (![0, 0] : Fin 2 → Nat) = fun _ => 0 := funext fun a => by fin_cases a <;> rfl

/-- At a point with kb ≠ 0 the body leaves, in the output block holding `xo`, `xo` plus the product of the blocks. -/
theorem out_B (c : Dev nD) (i : grid0.Coords) (a3 : Memref sig .tc .vmem S1024x512 .f32) (h3 : a3.IsWhole)
    (a4 : Memref sig .tc .vmem S512x2048 .bf16) (h4 : a4.IsWhole) (a5 : Memref sig .tc .vmem S1024x2048 .f32) (h5 : a5.IsWhole)
    (hc : ¬cond0_0 i) (x0 : Vec F S1024x512 .f32) (x1 : Vec F S512x2048 .bf16) (xo : Vec F S1024x2048 .f32) :
    out0_B_2 c i a3 h3 a4 h4 a5 h5 hc x0 x1 xo = k0_pay2 x0 x1 xo := by
  unfold out0_B_2
  rw [View.read_writes_eq_canon _ _ _ (cover0_B_2 c i a3 h3 a4 h4 a5 h5 hc x0 x1 xo)]
  unfold kernelRun0_B
  dsimp only
  rw [View.canon_unit_zero hz]
  simp only [View.readAt_eq_ld, h3.read_unread, h4.read_unread, h5.read_unread, View.ld_unit_zero (S := S1024x512) hz,
    View.ld_unit_zero (S := S512x2048) hz, View.ld_unit_zero (S := S1024x2048) hz]

/-- At a point with kb = 0 the body leaves the zero block plus the product of the blocks. -/
theorem out_A (c : Dev nD) (i : grid0.Coords) (a3 : Memref sig .tc .vmem S1024x512 .f32) (h3 : a3.IsWhole)
    (a4 : Memref sig .tc .vmem S512x2048 .bf16) (h4 : a4.IsWhole) (a5 : Memref sig .tc .vmem S1024x2048 .f32) (h5 : a5.IsWhole)
    (hc : cond0_0 i) (x0 : Vec F S1024x512 .f32) (x1 : Vec F S512x2048 .bf16) :
    out0_A_2 c i a3 h3 a4 h4 a5 h5 hc x0 x1 = k0_pay2 x0 x1 (k0_pay1 (F := F)) := by
  unfold out0_A_2
  rw [View.read_writes_eq_canon _ _ _ (cover0_A_2 c i a3 h3 a4 h4 a5 h5 hc x0 x1)]
  unfold kernelRun0_A
  dsimp only
  sl_unfold_words
  rw [View.canon_cons_unit_zero (S := S1024x2048) hz, View.readCov_unit_zero (S := S1024x2048) _ hz]
  simp only [View.readAt_eq_ld, h3.read_unread, h4.read_unread, View.ld_unit_zero (S := S1024x512) hz,
    View.ld_unit_zero (S := S512x2048) hz]

end Cert.KernelIdeal.AccValue

end
-- ==== Proof.BodyValue.lean ====
/-
  The kernel body's two stored values, read at an index of the 1024×2048 output block. The store made when the
  position along the contracted axis is zero writes the zero block. The store made at every position writes the
  block already there plus the product of the 1024×512 activation block with the 512×2048 weight block: at row r and
  column c, the sum over the 512 contracted positions kk of activation (r, kk) times weight (kk, c). At the extended
  reals the narrowing of the activations to bf16 is the identity, and the product into a zero accumulator is that sum.
-/
import proofs.«129058_j64347200028815_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.BodyValue

open Cert.KernelIdeal Cert.KernelIdeal.Gen
open Idealize.ShloMosaic Idealize.ShloMosaic.ValueIdx

/-- The block stored at the first position along the contracted axis is zero everywhere. -/
theorem zero_apply (j : S1024x2048.Idx) : Gen.k0_pay1 (F := Ideal) j = (0 : EReal) := by
  unfold Gen.k0_pay1
  exact Ideal.ofBits_zero_f32

/-! ## The product's operand indices at output index (r, c) and contracted position k -/

/-- The left operand's row is the output's row. -/
theorem lhs_row (i : S1024x2048.Idx) (q : dot_S1024x512_S512x2048_S1024x2048_1_0_0_1_n_n.contr.Idx) :
    (dot_S1024x512_S512x2048_S1024x2048_1_0_0_1_n_n.lhsIdx i q 0).val = (i 0).val := by
  unfold DotDims.lhsIdx
  rw [dif_neg (show ¬(0 : Fin S1024x512.rank) ∈ dot_S1024x512_S512x2048_S1024x2048_1_0_0_1_n_n.lhsBatch by decide), dif_pos (show (0 : Fin S1024x512.rank) ∈ dot_S1024x512_S512x2048_S1024x2048_1_0_0_1_n_n.lhsNonContracting by decide)]
  rfl
/-- The left operand's column is the contracted position. -/
theorem lhs_col (i : S1024x2048.Idx) (q : dot_S1024x512_S512x2048_S1024x2048_1_0_0_1_n_n.contr.Idx) :
    (dot_S1024x512_S512x2048_S1024x2048_1_0_0_1_n_n.lhsIdx i q 1).val = (q ⟨0, by decide⟩).val :=
  dot_S1024x512_S512x2048_S1024x2048_1_0_0_1_n_n.lhsIdx_val_of_single rfl i q
/-- The right operand's row is the contracted position. -/
theorem rhs_row (i : S1024x2048.Idx) (q : dot_S1024x512_S512x2048_S1024x2048_1_0_0_1_n_n.contr.Idx) :
    (dot_S1024x512_S512x2048_S1024x2048_1_0_0_1_n_n.rhsIdx i q 0).val = (q ⟨0, by decide⟩).val :=
  dot_S1024x512_S512x2048_S1024x2048_1_0_0_1_n_n.rhsIdx_val_of_single rfl i q
/-- The right operand's column is the output's column. -/
theorem rhs_col (i : S1024x2048.Idx) (q : dot_S1024x512_S512x2048_S1024x2048_1_0_0_1_n_n.contr.Idx) :
    (dot_S1024x512_S512x2048_S1024x2048_1_0_0_1_n_n.rhsIdx i q 1).val = (i 1).val := by
  unfold DotDims.rhsIdx
  rw [dif_neg (show ¬(1 : Fin S512x2048.rank) ∈ dot_S1024x512_S512x2048_S1024x2048_1_0_0_1_n_n.rhsBatch by decide), dif_pos (show (1 : Fin S512x2048.rank) ∈ dot_S1024x512_S512x2048_S1024x2048_1_0_0_1_n_n.rhsNonContracting by decide)]
  rfl

/-- The block product into a zero accumulator, read at (r, c): the sum over the 512 contracted positions. -/
theorem product_apply (a : FVec Ideal S1024x512 .bf16) (b : FVec Ideal S512x2048 .bf16) (r : Fin 1024) (cc : Fin 2048) :
    matmul dot_S1024x512_S512x2048_S1024x2048_1_0_0_1_n_n none a b (constant (F := Ideal) S1024x2048 .f32 0x00000000#32) (ix2 r cc)
      = ∑ kk : Fin 512, a (ix2 r kk) * b (ix2 kk cc) := by
  refine (Ideal.matmul_constant_zero_apply dot_S1024x512_S512x2048_S1024x2048_1_0_0_1_n_n none a b (ix2 r cc)).trans ?_
  rw [← Equiv.sum_comp (ValueIdx.contrEquiv1 dot_S1024x512_S512x2048_S1024x2048_1_0_0_1_n_n 512 rfl rfl).symm]
  refine Finset.sum_congr rfl fun k _ => ?_
  have hk := ValueIdx.contrEquiv1_symm_val dot_S1024x512_S512x2048_S1024x2048_1_0_0_1_n_n 512 rfl rfl k
  have el : dot_S1024x512_S512x2048_S1024x2048_1_0_0_1_n_n.lhsIdx (ix2 r cc) ((ValueIdx.contrEquiv1 dot_S1024x512_S512x2048_S1024x2048_1_0_0_1_n_n 512 rfl rfl).symm k) = ix2 r k := funext fun d => Fin.ext (by
    match d with
    | ⟨0, _⟩ => exact lhs_row _ _
    | ⟨1, _⟩ => exact (lhs_col _ _).trans hk)
  have er : dot_S1024x512_S512x2048_S1024x2048_1_0_0_1_n_n.rhsIdx (ix2 r cc) ((ValueIdx.contrEquiv1 dot_S1024x512_S512x2048_S1024x2048_1_0_0_1_n_n 512 rfl rfl).symm k) = ix2 k cc := funext fun d => Fin.ext (by
    match d with
    | ⟨0, _⟩ => exact (rhs_row _ _).trans hk
    | ⟨1, _⟩ => exact rhs_col _ _)
  rw [el, er]

/-- The block stored at every position is the block already there plus the activation block times the weight block. -/
theorem step_apply (v3 : Vec Ideal S1024x512 .f32) (v6 : Vec Ideal S512x2048 .bf16) (v8 : Vec Ideal S1024x2048 .f32) (r : Fin 1024) (cc : Fin 2048) :
    Gen.k0_pay2 (F := Ideal) v3 v6 v8 (ix2 r cc) = v8 (ix2 r cc) + ∑ kk : Fin 512, v3 (ix2 r kk) * v6 (ix2 kk cc) := by
  unfold Gen.k0_pay2
  rw [shapeCast_self v3, shapeCast_self v6, shapeCast_self v8]
  refine (addf_apply _ _ (ix2 r cc)).trans ?_
  refine congrArg (v8 (ix2 r cc) + ·) ?_
  exact product_apply (truncf .bf16 v3 bitsLt_bf16_f32) v6 r cc

end Cert.KernelIdeal.BodyValue

end
-- ==== Proof.Accum.lean ====
/-
  The accumulation over the contracted axis, as values. The grid point at position n has block row n / 16, block
  column n / 8 % 2 and position kb = n % 8 along the contracted axis; its activation block is rows
  1024·(n / 16) … of columns 512·kb … of the flattened activations, its weight block rows 512·kb … of columns
  2048·(n / 8 % 2) … of the weight. After it the output block holds, entry by entry, the sum over the positions
  0 … kb of the products of the corresponding activation and weight blocks: by induction on the point, the step at
  kb = 0 starting from the zero block and every other step from what the point before left.
  Arrays are read as functions of two naturals (zero outside their extents), so that no index arithmetic sits
  inside a dependent type.
-/
import proofs.«129058_j64347200028815_2_alg».proof.Proof.StepValue
import proofs.«129058_j64347200028815_2_alg».proof.Proof.BodyValue
import Idealize.ShloMosaic.Lib.Pipeline.Value
import Idealize.ShloMosaic.Lib.ValueIdx

set_option maxRecDepth 16384

noncomputable section

namespace Cert.KernelIdeal.AccValue

open Cert.KernelIdeal Cert.KernelIdeal.Gen Cert.KernelIdeal.Acc
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- A rank-2 array as a function of two naturals: zero outside its extents. -/
def tot2 {n0 n1 : ℕ} (A : (⟨2, ![n0, n1]⟩ : Shape).Idx → EReal) (a b : ℕ) : EReal :=
  if h : a < n0 ∧ b < n1 then A (ix2 ⟨a, h.1⟩ ⟨b, h.2⟩) else 0

theorem tot2_of_lt {n0 n1 : ℕ} (A : (⟨2, ![n0, n1]⟩ : Shape).Idx → EReal) (a b : ℕ) (ha : a < n0) (hb : b < n1) :
    tot2 A a b = A (ix2 ⟨a, ha⟩ ⟨b, hb⟩) := dif_pos ⟨ha, hb⟩

theorem tot2_apply {n0 n1 : ℕ} (A : (⟨2, ![n0, n1]⟩ : Shape).Idx → EReal) (i : (⟨2, ![n0, n1]⟩ : Shape).Idx) :
    A i = tot2 A (i 0).val (i 1).val := by
  rw [tot2_of_lt A _ _ (idx2_lt0 i) (idx2_lt1 i)]
  exact congrArg A (eq_ix2 i)

/-- The product of activation block (ib, kb) and weight block (kb, jb) at entry (r, cc) of the output block. -/
def blockDot (A B : ℕ → ℕ → EReal) (ib jb r cc kb : ℕ) : EReal :=
  ∑ kk : Fin 512, A (1024 * ib + r) (512 * kb + kk.val) * B (512 * kb + kk.val) (2048 * jb + cc)

/-- The flattened activations and the weight, as the region finds them. -/
abbrev X (c : Dev nD) : S16384x4096.Idx → EReal := V m c main_v12
abbrev Wt (c : Dev nD) : S4096x4096.Idx → EReal := V m c main_v11

/-- The block indices of the three windows at the point at position t. -/
theorem idx_facts : ∀ t : Fin cfg0.N,
    win0_0.index t (0 : Fin 2) = t.val / 16 ∧ win0_0.index t (1 : Fin 2) = t.val % 8
    ∧ win0_1.index t (0 : Fin 2) = t.val % 8 ∧ win0_1.index t (1 : Fin 2) = t.val / 8 % 2
    ∧ win0_2.index t (0 : Fin 2) = t.val / 16 ∧ win0_2.index t (1 : Fin 2) = t.val / 8 % 2 :=
  (by decide +kernel : ∀ t : Fin grid0.N, _)

/-- The activation block of the point at position t, at entry (r, kk): the flattened activations' entry
    (1024·(t / 16) + r, 512·(t % 8) + kk). -/
theorem read_x (A : S16384x4096.Idx → EReal) (t : Fin cfg0.N) (r : Fin 1024) (kk : Fin 512) :
    (((cfg0.win 0).blk t).view.read (Elt Ideal) A : Vec Ideal S1024x512 .f32) (ix2 r kk)
      = tot2 A (1024 * (t.val / 16) + r.val) (512 * (t.val % 8) + kk.val) := by
  obtain ⟨e0, e1, -⟩ := idx_facts t
  rw [View.read_apply, tot2_apply A]
  have h0 : ((((cfg0.win 0).blk t).view.emb (ix2 r kk : S1024x512.Idx)) 0).val = 1024 * (t.val / 16) + r.val := by
    show win0_0.index t (0 : Fin 2) * 1024 + 1 * r.val = _
    rw [e0]; omega
  have h1 : ((((cfg0.win 0).blk t).view.emb (ix2 r kk : S1024x512.Idx)) 1).val = 512 * (t.val % 8) + kk.val := by
    show win0_0.index t (1 : Fin 2) * 512 + 1 * kk.val = _
    rw [e1]; omega
  rw [h0, h1]
  exact cast_eq _ _

/-- The weight block of the point at position t, at entry (kk, cc): the weight's entry
    (512·(t % 8) + kk, 2048·(t / 8 % 2) + cc). -/
theorem read_w (B : S4096x4096.Idx → EReal) (t : Fin cfg0.N) (kk : Fin 512) (cc : Fin 2048) :
    (((cfg0.win 1).blk t).view.read (Elt Ideal) B : Vec Ideal S512x2048 .bf16) (ix2 kk cc)
      = tot2 B (512 * (t.val % 8) + kk.val) (2048 * (t.val / 8 % 2) + cc.val) := by
  obtain ⟨-, -, e0, e1, -⟩ := idx_facts t
  rw [View.read_apply, tot2_apply B]
  have h0 : ((((cfg0.win 1).blk t).view.emb (ix2 kk cc : S512x2048.Idx)) 0).val = 512 * (t.val % 8) + kk.val := by
    show win0_1.index t (0 : Fin 2) * 512 + 1 * kk.val = _
    rw [e0]; omega
  have h1 : ((((cfg0.win 1).blk t).view.emb (ix2 kk cc : S512x2048.Idx)) 1).val = 2048 * (t.val / 8 % 2) + cc.val := by
    show win0_1.index t (1 : Fin 2) * 2048 + 1 * cc.val = _
    rw [e1]; omega
  rw [h0, h1]
  exact cast_eq _ _

theorem iblk_x (c : Dev nD) (t : Fin cfg0.N) (r : Fin 1024) (kk : Fin 512) :
    (iblk m c 0 t : Vec Ideal S1024x512 .f32) (ix2 r kk) = tot2 (X m c) (1024 * (t.val / 16) + r.val) (512 * (t.val % 8) + kk.val) := by
  unfold iblk
  exact read_x (X m c) t r kk

theorem iblk_w (c : Dev nD) (t : Fin cfg0.N) (kk : Fin 512) (cc : Fin 2048) :
    (iblk m c 1 t : Vec Ideal S512x2048 .bf16) (ix2 kk cc) = tot2 (Wt m c) (512 * (t.val % 8) + kk.val) (2048 * (t.val / 8 % 2) + cc.val) := by
  unfold iblk
  exact read_w (Wt m c) t kk cc

/-- The product of two blocks that are the activation and weight blocks of the point at position t is the block
    product at kb = t % 8. -/
theorem dot_of_blocks (A B : ℕ → ℕ → EReal) (t : ℕ) (v3 : Vec Ideal S1024x512 .f32) (v6 : Vec Ideal S512x2048 .bf16)
    (h3 : ∀ (r : Fin 1024) (kk : Fin 512), v3 (ix2 r kk) = A (1024 * (t / 16) + r.val) (512 * (t % 8) + kk.val))
    (h6 : ∀ (kk : Fin 512) (cc : Fin 2048), v6 (ix2 kk cc) = B (512 * (t % 8) + kk.val) (2048 * (t / 8 % 2) + cc.val))
    (r : Fin 1024) (cc : Fin 2048) :
    ∑ kk : Fin 512, v3 (ix2 r kk) * v6 (ix2 kk cc) = blockDot A B (t / 16) (t / 8 % 2) r.val cc.val (t % 8) := by
  unfold blockDot
  exact Finset.sum_congr rfl fun kk _ => by rw [h3, h6]

/-- After the point at position n the output block holds the sum of the block products over positions 0 … n % 8. -/
theorem outsAt_eq (c : Dev nD) : ∀ (n : ℕ) (h : n < cfg0.N) (r : Fin 1024) (cc : Fin 2048),
    outsAt0 m c n h (ix2 r cc)
      = ∑ kb ∈ Finset.range (n % 8 + 1), blockDot (tot2 (X m c)) (tot2 (Wt m c)) (n / 16) (n / 8 % 2) r.val cc.val kb
  | 0, h, r, cc => by
    have e := outsAt0_A m c ⟨0, h⟩ rfl
    rw [show outsAt0 m c 0 h = _ from e, out_A]
    refine (BodyValue.step_apply _ _ _ r cc).trans ?_
    rw [BodyValue.zero_apply, zero_add, dot_of_blocks (tot2 (X m c)) (tot2 (Wt m c)) 0 _ _ (iblk_x m c ⟨0, h⟩) (iblk_w m c ⟨0, h⟩) r cc]
    exact (Finset.sum_range_one _).symm
  | n + 1, h, r, cc => by
    by_cases h0 : (n + 1) % 8 = 0
    · have e := outsAt0_A m c ⟨n + 1, h⟩ h0
      rw [show outsAt0 m c (n + 1) h = _ from e, out_A]
      refine (BodyValue.step_apply _ _ _ r cc).trans ?_
      rw [BodyValue.zero_apply, zero_add, dot_of_blocks (tot2 (X m c)) (tot2 (Wt m c)) (n + 1) _ _ (iblk_x m c ⟨n + 1, h⟩) (iblk_w m c ⟨n + 1, h⟩) r cc]
      show blockDot _ _ ((n + 1) / 16) ((n + 1) / 8 % 2) r.val cc.val ((n + 1) % 8) = _
      rw [h0]
      exact (Finset.sum_range_one _).symm
    · have e := outsAt0_B m c ⟨n + 1, h⟩ h0
      rw [show outsAt0 m c (n + 1) h = _ from e, out_B]
      refine (BodyValue.step_apply _ _ _ r cc).trans ?_
      rw [dot_of_blocks (tot2 (X m c)) (tot2 (Wt m c)) (n + 1) _ _ (iblk_x m c ⟨n + 1, h⟩) (iblk_w m c ⟨n + 1, h⟩) r cc]
      show outsAt0 m c n _ (ix2 r cc) + blockDot _ _ ((n + 1) / 16) ((n + 1) / 8 % 2) r.val cc.val ((n + 1) % 8) = _
      rw [outsAt_eq c n (Nat.lt_of_succ_lt h) r cc]
      have q1 : (n + 1) / 16 = n / 16 := by omega
      have q2 : (n + 1) / 8 % 2 = n / 8 % 2 := by omega
      have q3 : (n + 1) % 8 = n % 8 + 1 := by omega
      rw [q1, q2, q3, Finset.sum_range_succ _ (n % 8 + 1)]

end Cert.KernelIdeal.AccValue

end
-- ==== Proof.LibBlockSum.lean ====
/-
  Three general facts about finite sums in a commutative additive monoid, with no program in sight: a running total
  that starts at the first term and adds the next term at every step is the sum of the terms so far; a sum over an
  initial segment of the naturals is the sum over the finite type of its elements; and a sum over `a * b` indices
  regroups into `a` consecutive blocks of `b`.
-/
import Mathlib.Algebra.BigOperators.Fin
import Mathlib.Data.Fintype.BigOperators
import Mathlib.Logic.Equiv.Fin.Basic
import Mathlib.Tactic.Ring

open scoped BigOperators

namespace Cert.LibBlockSum

/-- A RUNNING TOTAL IS A SUM. If `acc 0` is the first term and each step adds the next term, then after step `n` the
    total is the sum of the terms `0, …, n`. -/
theorem run_sum {M : Type*} [AddCommMonoid M] (g acc : ℕ → M) (h0 : acc 0 = g 0)
    (hs : ∀ k, acc (k + 1) = acc k + g (k + 1)) (n : ℕ) : acc n = ∑ k ∈ Finset.range (n + 1), g k := by
  induction n with
  | zero => rw [Finset.sum_range_succ, Finset.sum_range_zero, zero_add]; exact h0
  | succ n ih => rw [hs, ih, Finset.sum_range_succ _ (n + 1)]

/-- The same from an EMPTY start: if `acc 0` is zero and step `k` adds the term `k`, then after `n` steps the total is
    the sum of the terms `0, …, n - 1`. -/
theorem run_sum_zero {M : Type*} [AddCommMonoid M] (g acc : ℕ → M) (h0 : acc 0 = 0)
    (hs : ∀ k, acc (k + 1) = acc k + g k) (n : ℕ) : acc n = ∑ k ∈ Finset.range n, g k := by
  induction n with
  | zero => rw [Finset.sum_range_zero]; exact h0
  | succ n ih => rw [hs, ih, Finset.sum_range_succ]

/-- A sum over the naturals below `n` is the sum over `Fin n` of the term at each element's value
    (Mathlib's `Finset.sum_range`). -/
theorem sum_range_eq_sum_fin {M : Type*} [AddCommMonoid M] (n : ℕ) (g : ℕ → M) :
    ∑ k ∈ Finset.range n, g k = ∑ k : Fin n, g k.val :=
  Finset.sum_range g

/-- Position `j` of block `i`, among `a` consecutive blocks of `b`, is below `a * b`. -/
theorem block_lt {a b : ℕ} (i : Fin a) (j : Fin b) : b * i.val + j.val < a * b := by
  have hi : i.val + 1 ≤ a := i.isLt
  calc b * i.val + j.val < b * i.val + b := Nat.add_lt_add_left j.isLt _
    _ = b * (i.val + 1) := by ring
    _ ≤ b * a := Nat.mul_le_mul_left b hi
    _ = a * b := Nat.mul_comm b a

/-- REGROUPING INTO BLOCKS. A sum over `a * b` indices is the sum, over the `a` consecutive blocks of `b` indices, of the
    sum over each block: index `b * i + j` is position `j` of block `i` (the bijection `finProdFinEquiv`). -/
theorem sum_blocks_mul {M : Type*} [AddCommMonoid M] (a b : ℕ) (f : Fin (a * b) → M) :
    ∑ i : Fin a, ∑ j : Fin b, f ⟨b * i.val + j.val, block_lt i j⟩ = ∑ k : Fin (a * b), f k := by
  rw [← Equiv.sum_comp finProdFinEquiv f, Fintype.sum_prod_type]
  refine Finset.sum_congr rfl fun i _ => Finset.sum_congr rfl fun j _ => congrArg f (Fin.ext ?_)
  show b * i.val + j.val = j.val + b * i.val
  exact Nat.add_comm _ _

/-- The instance used by a pass over 16 column blocks of 256 columns: 4096 columns in all. -/
theorem sum_blocks {M : Type*} [AddCommMonoid M] (f : Fin 4096 → M) :
    ∑ cb : Fin 16, ∑ l : Fin 256, f ⟨256 * cb.val + l.val, block_lt (a := 16) cb l⟩ = ∑ j : Fin 4096, f j :=
  sum_blocks_mul 16 256 f

/-- … and the one used by a pass over 8 row blocks of 512 rows: 4096 rows in all. -/
theorem sum_row_blocks {M : Type*} [AddCommMonoid M] (f : Fin 4096 → M) :
    ∑ rb : Fin 8, ∑ r : Fin 512, f ⟨512 * rb.val + r.val, block_lt (a := 8) rb r⟩ = ∑ i : Fin 4096, f i :=
  sum_blocks_mul 8 512 f

end Cert.LibBlockSum
-- ==== Proof.Product.lean ====
/-
  The output array after the region is the matrix product. A grid point at position t has block row t / 16, block
  column t / 8 % 2 and position t % 8 along the contracted axis, and the output block is written back after position
  7. What it then holds, entry by entry, is the sum over the eight positions of the products of the activation and
  weight blocks; regrouping eight consecutive blocks of 512 contracted indices into one sum over 4096 makes that the
  entry of the product of the flattened activations with the weight. The 16 × 2 written-back blocks tile the
  16384×4096 array, so the array ends holding the product.
-/
import proofs.«129058_j64347200028815_2_alg».proof.Proof.Accum
import proofs.«129058_j64347200028815_2_alg».proof.Proof.LibBlockSum
import Idealize.ShloMosaic.Lib.Pipeline.Value

set_option maxRecDepth 16384

noncomputable section

open scoped BigOperators

namespace Cert.KernelIdeal.AccValue

open Cert.KernelIdeal Cert.KernelIdeal.Gen Cert.KernelIdeal.Acc
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The product of a 16384×4096 array with a 4096×4096 array: at (r, o), the sum over k of A (r, k) · B (k, o). -/
def product (A : S16384x4096.Idx → EReal) (B : S4096x4096.Idx → EReal) : S16384x4096.Idx → EReal :=
  fun i => ∑ k : Fin 4096, A (ix2 (i 0 : Fin 16384) k) * B (ix2 k (i 1 : Fin 4096))

/-- The product read at the index with coordinates (r, o). -/
theorem product_apply (A : S16384x4096.Idx → EReal) (B : S4096x4096.Idx → EReal) (r : Fin 16384) (o : Fin 4096) :
    product A B (ix2 r o) = ∑ k : Fin 4096, A (ix2 r k) * B (ix2 k o) := rfl

/-- REGROUPING. The eight block products of block row ib and block column jb, summed at entry (r, cc), are the entry
    (1024·ib + r, 2048·jb + cc) of the whole product: 4096 contracted indices are eight consecutive blocks of 512. -/
theorem blocks_sum (A : S16384x4096.Idx → EReal) (B : S4096x4096.Idx → EReal) (ib jb : ℕ) (r : Fin 1024) (cc : Fin 2048)
    (hR : 1024 * ib + r.val < 16384) (hO : 2048 * jb + cc.val < 4096) :
    ∑ kb ∈ Finset.range 8, blockDot (tot2 A) (tot2 B) ib jb r.val cc.val kb
      = product A B (ix2 ⟨1024 * ib + r.val, hR⟩ ⟨2048 * jb + cc.val, hO⟩) := by
  refine Eq.trans ?_ (Cert.LibBlockSum.sum_row_blocks
    (fun k : Fin 4096 => A (ix2 ⟨1024 * ib + r.val, hR⟩ k) * B (ix2 k ⟨2048 * jb + cc.val, hO⟩)))
  rw [Finset.sum_range]
  refine Finset.sum_congr rfl fun kb _ => ?_
  unfold blockDot
  refine Finset.sum_congr rfl fun kk _ => ?_
  have hk : 512 * kb.val + kk.val < 4096 := Cert.LibBlockSum.block_lt (a := 8) kb kk
  rw [tot2_of_lt A _ _ hR hk, tot2_of_lt B _ _ hk hO]

/-- What the output block holds after a point at position 7 along the contracted axis: the product's entries of the
    point's block row and block column. -/
theorem block_value (c : Dev nD) (t : Fin cfg0.N) (h7 : t.val % 8 = 7) (r : Fin 1024) (cc : Fin 2048)
    (hR : 1024 * (t.val / 16) + r.val < 16384) (hO : 2048 * (t.val / 8 % 2) + cc.val < 4096) :
    outsAt0 m c t.val t.isLt (ix2 r cc)
      = product (X m c) (Wt m c) (ix2 ⟨1024 * (t.val / 16) + r.val, hR⟩ ⟨2048 * (t.val / 8 % 2) + cc.val, hO⟩) := by
  rw [outsAt_eq m c t.val t.isLt r cc, h7]
  exact blocks_sum (X m c) (Wt m c) (t.val / 16) (t.val / 8 % 2) r cc hR hO

/-- WHAT A POINT WRITES BACK is its block of the product of the flattened activations and the weight. -/
theorem flushed_eq (c : Dev nD) (t : Fin cfg0.N) (hf : (cfg0.win 2).flush t = true) :
    (dats m 0 c).flushed 2 t = ((cfg0.win 2).blk t).view.read (Elt Ideal) (product (X m c) (Wt m c)) := by
  have h7 : t.val % 8 = 7 := (flush0_2 t).mp hf
  have hN : t.val < 256 := lt_of_lt_of_eq t.isLt (show cfg0.N = 256 from N_0)
  obtain ⟨-, -, -, -, e4, e5⟩ := idx_facts t
  show (cfg0.win 2).cut (grid0.coords t) ((dats m 0 c).after 2 t) = _
  rw [after0_2]
  refine funext fun (y : S1024x2048.Idx) => ?_
  obtain ⟨r, cc, rfl⟩ : ∃ (r : Fin 1024) (cc : Fin 2048), y = ix2 r cc := ⟨y 0, y 1, eq_ix2 y⟩
  have hr : r.val < 1024 := r.isLt
  have hc : cc.val < 2048 := cc.isLt
  show outsAt0 m c t.val t.isLt (ix2 r cc) = product (X m c) (Wt m c) (((cfg0.win 2).blk t).view.emb (ix2 r cc))
  rw [block_value m c t h7 r cc (by omega) (by omega)]
  refine congrArg (product (X m c) (Wt m c)) ?_
  funext a; apply Fin.ext
  match a with
  | ⟨0, _⟩ => show 1024 * (t.val / 16) + r.val = win0_2.index t (0 : Fin 2) * 1024 + 1 * r.val; rw [e4]; omega
  | ⟨1, _⟩ => show 2048 * (t.val / 8 % 2) + cc.val = win0_2.index t (1 : Fin 2) * 2048 + 1 * cc.val; rw [e5]; omega

/-- An index of the array is in a point's block iff each coordinate is in the block's range on its axis. -/
theorem mem_blk (t : Fin cfg0.N) (i : S16384x4096.Idx) :
    i ∈ ((cfg0.win 2).blk t).view.set ↔ ∀ a : Fin 2, win0_2.index t a * S1024x2048.size a ≤ (i a).val ∧ (i a).val < win0_2.index t a * S1024x2048.size a + S1024x2048.size a := by
  show i ∈ ((View.whole main_v13).slice (win0_2.rect t)).set ↔ _
  rw [View.set_slice_whole, Rect.mem_set_unit]
  exact Iff.rfl

/-- THE COVER. Every index (i0, i1) of the array lies in the block written back by the point with block row i0 / 1024,
    block column i1 / 2048 and position 7 along the contracted axis. -/
theorem cover (i : S16384x4096.Idx) :
    ∃ t : Fin cfg0.N, (cfg0.win 2).flush t = true ∧ i ∈ ((cfg0.win 2).blk t).view.set := by
  have hN : cfg0.N = 256 := N_0
  have hi0 : (i 0).val < 16384 := (i 0).isLt
  have hi1 : (i 1).val < 4096 := (i 1).isLt
  obtain ⟨t, ht⟩ : ∃ t : Fin cfg0.N, t.val = 16 * ((i 0).val / 1024) + 8 * ((i 1).val / 2048) + 7 :=
    ⟨⟨16 * ((i 0).val / 1024) + 8 * ((i 1).val / 2048) + 7, by omega⟩, rfl⟩
  obtain ⟨-, -, -, -, e4, e5⟩ := idx_facts t
  refine ⟨t, (flush0_2 t).mpr (by omega), ?_⟩
  rw [mem_blk]
  intro a
  match a with
  | ⟨0, _⟩ => show win0_2.index t (0 : Fin 2) * 1024 ≤ (i 0).val ∧ (i 0).val < win0_2.index t (0 : Fin 2) * 1024 + 1024; rw [e4]; omega
  | ⟨1, _⟩ => show win0_2.index t (1 : Fin 2) * 2048 ≤ (i 1).val ∧ (i 1).val < win0_2.index t (1 : Fin 2) * 2048 + 2048; rw [e5]; omega

/-- THE ARRAY after the run is the product of the flattened activations and the weight. -/
theorem final_out (c : Dev nD) : (dats m 0 c).arrAt 2 cfg0.N = product (X m c) (Wt m c) :=
  (dats m 0 c).arrAt_eq_of_cover 2 (product (X m c) (Wt m c)) (flushed_eq m c) cover

end Cert.KernelIdeal.AccValue

end
-- ==== Proof.HostEntry.lean ====
/-
  The host lines before the matmul region, read as values at the extended reals.
  The activations x : [8, 2048, 4096] reach the region flattened to [16384, 4096]: row r of the flat array is
  row r % 2048 of batch r / 2048 (row-major order is kept by a reshape).
-/
import proofs.«129058_j64347200028815_2_alg».proof.Proof.AroundI
import Idealize.ShloMosaic.Lib.StableHlo.Run
import Idealize.ShloMosaic.Lib.Pipeline.Value
import Idealize.ShloMosaic.Lib.ValueIdx
import Idealize.ShloMosaic.Lib.Pipeline.FrameSuffix

set_option maxRecDepth 16384

noncomputable section

namespace Cert.KernelIdeal.Host

open Cert.KernelIdeal Cert.KernelIdeal.Gen Cert.KernelIdeal.Acc
open Idealize.ShloMosaic Idealize.ShloMosaic.TcCoe Idealize.SL.Sem Idealize.ShloMosaic.StableHlo

variable (m : (ℓ : Loc nD τ sig) → Buf (Elt Ideal) ℓ)

/-- The region finds, as the flattened activations, the reshape of argument 0 as launched. -/
theorem entry_x (c : Dev nD) :
    (V m c main_v12 : S16384x4096.Idx → EReal)
      = shapeCast S16384x4096 (m ((c : Thread nD τ).loc main_arg0)) shapeCasts_S8x2048x4096_S16384x4096 := by
  show StableHlo.after hostOps0 (fun b => m (c, b)) (Proc.devRef .tc main_v12) = _
  after_results
  rfl

/-- Entry (r, k) of the flattened activations is entry (r / 2048, r % 2048, k) of the argument. -/
theorem entry_x_apply (c : Dev nD) (r : Fin 16384) (k : Fin 4096) :
    V m c main_v12 (ValueIdx.ix2 r k)
      = m ((c : Thread nD τ).loc main_arg0)
          (ValueIdx.ix3 (⟨r.val / 2048, by omega⟩ : Fin 8) (⟨r.val % 2048, Nat.mod_lt _ (by decide)⟩ : Fin 2048) k) := by
  have e := congrFun (entry_x m c) (ValueIdx.ix2 r k)
  refine e.trans ?_
  refine shapeCast_apply (s := S8x2048x4096) (t := S16384x4096) (m ((c : Thread nD τ).loc main_arg0))
    shapeCasts_S8x2048x4096_S16384x4096 (ValueIdx.ix2 r k) _ ?_
  show ((⟨3, ![8, 2048, 4096]⟩ : Shape).rowMajor _).val = ((⟨2, ![16384, 4096]⟩ : Shape).rowMajor _).val
  rw [Shape.rowMajor_val_three, Shape.rowMajor_val_two]
  show ((r.val / 2048) * 2048 + r.val % 2048) * 4096 + k.val = r.val * 4096 + k.val
  have := Nat.div_add_mod r.val 2048
  omega

/-! ## The weight

The 4096×4096 weight is four column panels of four 1024×1024 blocks each, three blocks of the first panel and one
of each other negated. It is carried as one term of the four argument blocks and never read entry by entry: the
reference joins the same blocks by the same operations. -/

/-- The weight as a function of its four blocks. -/
def weight (x1 x2 x3 x4 : (⟨S1024x1024, .f32⟩ : BufTy).Contents (Elt Ideal)) : (⟨S4096x4096, .f32⟩ : BufTy).Contents (Elt Ideal) :=
  concatenate S4096x4096 1
    [⟨S4096x1024, concatenate S4096x1024 0 [⟨S1024x1024, x1⟩, ⟨S1024x1024, Host.negf (F := Ideal) (s := S1024x1024) (φ := .f32) x2⟩, ⟨S1024x1024, Host.negf (F := Ideal) (s := S1024x1024) (φ := .f32) x3⟩, ⟨S1024x1024, Host.negf (F := Ideal) (s := S1024x1024) (φ := .f32) x4⟩] concatenates_S1024x1024_S1024x1024_S1024x1024_S1024x1024_S4096x1024_d0⟩,
     ⟨S4096x1024, concatenate S4096x1024 0 [⟨S1024x1024, x2⟩, ⟨S1024x1024, x1⟩, ⟨S1024x1024, Host.negf (F := Ideal) (s := S1024x1024) (φ := .f32) x4⟩, ⟨S1024x1024, x3⟩] concatenates_S1024x1024_S1024x1024_S1024x1024_S1024x1024_S4096x1024_d0⟩,
     ⟨S4096x1024, concatenate S4096x1024 0 [⟨S1024x1024, x3⟩, ⟨S1024x1024, x4⟩, ⟨S1024x1024, x1⟩, ⟨S1024x1024, Host.negf (F := Ideal) (s := S1024x1024) (φ := .f32) x2⟩] concatenates_S1024x1024_S1024x1024_S1024x1024_S1024x1024_S4096x1024_d0⟩,
     ⟨S4096x1024, concatenate S4096x1024 0 [⟨S1024x1024, x4⟩, ⟨S1024x1024, Host.negf (F := Ideal) (s := S1024x1024) (φ := .f32) x3⟩, ⟨S1024x1024, x2⟩, ⟨S1024x1024, x1⟩] concatenates_S1024x1024_S1024x1024_S1024x1024_S1024x1024_S4096x1024_d0⟩]
    concatenates_S4096x1024_S4096x1024_S4096x1024_S4096x1024_S4096x4096_d1

/-- The region finds, as its weight, the weight of the four argument blocks as launched: the rounding to bf16 between
    the join and the region is the identity on extended reals. -/
theorem entry_w (c : Dev nD) :
    (V m c main_v11 : S4096x4096.Idx → EReal)
      = weight (m ((c : Thread nD τ).loc main_arg1)) (m ((c : Thread nD τ).loc main_arg2))
          (m ((c : Thread nD τ).loc main_arg3)) (m ((c : Thread nD τ).loc main_arg4)) := by
  show StableHlo.after hostOps0 (fun b => m (c, b)) (Proc.devRef .tc main_v11) = _
  after_results
  rfl

end Cert.KernelIdeal.Host

end
-- ==== Proof.HostTail.lean ====
/-
  The host lines after the matmul region, read as values at the extended reals: the region's output array
  out : [16384, 4096] is given back its batch axis (row 2048·p + s of the flat array is row s of batch p) and the
  bias, broadcast along batch and row, is added entry by entry.
-/
import proofs.«129058_j64347200028815_2_alg».proof.Proof.AroundI
import Idealize.ShloMosaic.Lib.StableHlo.Run
import Idealize.ShloMosaic.Lib.Pipeline.Value
import Idealize.ShloMosaic.Lib.ValueIdx
import Idealize.ShloMosaic.Lib.Pipeline.FrameSuffix

set_option maxRecDepth 16384

noncomputable section

namespace Cert.KernelIdeal.Host

open Cert.KernelIdeal Cert.KernelIdeal.Gen Cert.KernelIdeal.Acc
open Idealize.ShloMosaic Idealize.ShloMosaic.TcCoe Idealize.SL.Sem Idealize.ShloMosaic.StableHlo

variable (m : (ℓ : Loc nD τ sig) → Buf (Elt Ideal) ℓ)

/-- What the program returns, for any proof data of the region: the reshape of the output array as the region leaves
    it, plus the broadcast bias as launched (no line before or after the region writes the bias). -/
theorem tail_result (dats : (p : Fin 1) → (c : Dev nD) → Pipeline.Dat τ (Elt Ideal) Unit ℕ (UR sig nD τ) ℕ (cfgs p) c) (c : Dev nD) :
    (Pipeline.afterTail₀ cfgs dats 0 (V0 m) [hostOps1] c main_v17 : S8x2048x4096.Idx → EReal)
      = addf (F := Ideal) (s := S8x2048x4096) (φ := .f32)
          (shapeCast (s := S16384x4096) (α := EReal) S8x2048x4096 ((dats 0 c).arrAt 2 cfg0.N) shapeCasts_S16384x4096_S8x2048x4096)
          (broadcastInDim (s := S1x1x4096) (α := EReal) S8x2048x4096 ![0, 1, 2] bcast_S1x1x4096_S8x2048x4096_0_1_2
            (broadcastInDim (s := S4096) (α := EReal) S1x1x4096 ![2] bcast_S4096_S1x1x4096_2 (m ((c : Thread nD τ).loc main_arg5)))) := by
  unfold Pipeline.afterTail₀
  show StableHlo.after hostOps1 _ (Proc.devRef .tc main_v17) = _
  after_results
  have h13 : Pipeline.withArrays (cfgs 0).spec c (V0 m c) (fun w => (dats 0 c).arrAt w (cfgs 0).N) (Proc.devRef .tc main_v13)
      = (dats 0 c).arrAt 2 cfg0.N :=
    Pipeline.withArrays_arr spec0 launch0.win.arr_inj c _ _ 2
  have h5 : Pipeline.withArrays (cfgs 0).spec c (V0 m c) (fun w => (dats 0 c).arrAt w (cfgs 0).N) (Proc.devRef .tc main_arg5)
      = m ((c : Thread nD τ).loc main_arg5) :=
    (Pipeline.withArrays_of_ne _ c (V0 m c) _ main_arg5 (by exact (by decide : ∀ w, Pipeline.arrRef spec0 w ≠ main_arg5))).trans
      (V_main_arg5 m c)
  rw [h13, h5]
  rfl

/-- Entry (p, s, o) of the result is entry (2048·p + s, o) of the region's output array plus entry o of the bias. -/
theorem tail_apply (dats : (p : Fin 1) → (c : Dev nD) → Pipeline.Dat τ (Elt Ideal) Unit ℕ (UR sig nD τ) ℕ (cfgs p) c) (c : Dev nD)
    (p : Fin 8) (s : Fin 2048) (o : Fin 4096) :
    (Pipeline.afterTail₀ cfgs dats 0 (V0 m) [hostOps1] c main_v17 : S8x2048x4096.Idx → EReal) (ValueIdx.ix3 p s o)
      = @HAdd.hAdd EReal EReal EReal _
          ((dats 0 c).arrAt 2 cfg0.N (ValueIdx.ix2 (⟨2048 * p.val + s.val, by omega⟩ : Fin 16384) o))
          (m ((c : Thread nD τ).loc main_arg5) (ValueIdx.ix1 o)) := by
  refine (congrFun (tail_result m dats c) (ValueIdx.ix3 p s o)).trans ?_
  refine (ValueIdx.addf_apply _ _ _).trans ?_
  refine congrArg₂ (· + ·) ?_ ?_
  · refine shapeCast_apply (s := S16384x4096) (t := S8x2048x4096) _ shapeCasts_S16384x4096_S8x2048x4096 (ValueIdx.ix3 p s o)
      (ValueIdx.ix2 (⟨2048 * p.val + s.val, by omega⟩ : Fin 16384) o) ?_
    show ((⟨2, ![16384, 4096]⟩ : Shape).rowMajor _).val = ((⟨3, ![8, 2048, 4096]⟩ : Shape).rowMajor _).val
    rw [Shape.rowMajor_val_two, Shape.rowMajor_val_three]
    show (2048 * p.val + s.val) * 4096 + o.val = (p.val * 2048 + s.val) * 4096 + o.val
    omega
  · refine (broadcastInDim_apply _ bcast_S1x1x4096_S8x2048x4096_0_1_2 _ (ValueIdx.ix3 p s o)
      (ValueIdx.ix3 (0 : Fin 1) (0 : Fin 1) o) (fun a => match a with
        | ⟨0, _⟩ => by show 0 = if (1 : Nat) = 1 then 0 else p.val; rw [if_pos rfl]
        | ⟨1, _⟩ => by show 0 = if (1 : Nat) = 1 then 0 else s.val; rw [if_pos rfl]
        | ⟨2, _⟩ => by show o.val = if (4096 : Nat) = 1 then 0 else o.val; rw [if_neg (by decide)])).trans ?_
    exact broadcastInDim_apply _ bcast_S4096_S1x1x4096_2 _ (ValueIdx.ix3 (0 : Fin 1) (0 : Fin 1) o) (ValueIdx.ix1 o) (fun a => match a with
        | ⟨0, _⟩ => by show o.val = if (4096 : Nat) = 1 then 0 else o.val; rw [if_neg (by decide)])

end Cert.KernelIdeal.Host

end
-- ==== Proof.Linear.lean ====
/-
  The specification: a linear layer over the last axis. For activations x of shape [8, 2048, 4096], a weight w of
  shape [4096, 4096] and a bias b of shape [4096], the result at (p, s, o) is the sum over k of x (p, s, k) · w (k, o),
  plus b o, in the extended reals.
-/
import Idealize.ShloMosaic.PureOps.Ideal
import Idealize.ShloMosaic.Lib.ValueIdx

noncomputable section

open scoped BigOperators

namespace Cert.Linear

open Idealize.ShloMosaic Idealize.ShloMosaic.ValueIdx

/-- x · w + b over the last axis: at (p, s, o), the sum over k of x (p, s, k) · w (k, o), plus b o. -/
def linear (x : (⟨3, ![8, 2048, 4096]⟩ : Shape).Idx → EReal) (w : (⟨2, ![4096, 4096]⟩ : Shape).Idx → EReal)
    (b : (⟨1, ![4096]⟩ : Shape).Idx → EReal) : (⟨3, ![8, 2048, 4096]⟩ : Shape).Idx → EReal :=
  fun i => (∑ k : Fin 4096, x (ix3 (i 0 : Fin 8) (i 1 : Fin 2048) k) * w (ix2 k (i 2 : Fin 4096))) + b (ix1 (i 2 : Fin 4096))

/-- The specification read at the index with coordinates (p, s, o). -/
theorem linear_apply (x : (⟨3, ![8, 2048, 4096]⟩ : Shape).Idx → EReal) (w : (⟨2, ![4096, 4096]⟩ : Shape).Idx → EReal)
    (b : (⟨1, ![4096]⟩ : Shape).Idx → EReal) (p : Fin 8) (s : Fin 2048) (o : Fin 4096) :
    linear x w b (ix3 p s o) = (∑ k : Fin 4096, x (ix3 p s k) * w (ix2 k o)) + b (ix1 o) := rfl

end Cert.Linear

end
-- ==== Proof.KernelResult.lean ====
/-
  The idealized kernel's result. After the region the output array is the matrix product of the flattened
  activations and the weight; the host lines after it restore the batch axis and add the bias; the flattened
  activations' row 2048·p + s is row (p, s) of the activations; the weight the region finds is the Hamilton weight
  of the four argument blocks. So the result array is, index by index, the linear map x·W + bias.
-/
import proofs.«129058_j64347200028815_2_alg».proof.Proof.Product
import proofs.«129058_j64347200028815_2_alg».proof.Proof.HostEntry
import proofs.«129058_j64347200028815_2_alg».proof.Proof.HostTail
import proofs.«129058_j64347200028815_2_alg».proof.Proof.Linear

set_option maxRecDepth 16384

noncomputable section

namespace Cert.KernelIdeal.AccValue

open Cert.KernelIdeal Cert.KernelIdeal.Gen Cert.KernelIdeal.Acc Cert.KernelIdeal.Host
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The result array after the host lines that follow the region: x·W + bias of the arguments as launched. -/
theorem result_eq (c : Dev nD) :
    Pipeline.afterTail₀ cfgs (dats m) 0 (V0 m) [hostOps1] c main_v17
      = Cert.Linear.linear (m ((c : Thread nD τ).loc main_arg0))
          (weight (m ((c : Thread nD τ).loc main_arg1)) (m ((c : Thread nD τ).loc main_arg2)) (m ((c : Thread nD τ).loc main_arg3)) (m ((c : Thread nD τ).loc main_arg4)))
          (m ((c : Thread nD τ).loc main_arg5)) := by
  funext i
  obtain ⟨p, s, o, rfl⟩ : ∃ (p : Fin 8) (s : Fin 2048) (o : Fin 4096), i = ix3 p s o := ⟨i 0, i 1, i 2, eq_ix3 i⟩
  rw [tail_apply m (dats m) c p s o, final_out m c, product_apply, Cert.Linear.linear_apply]
  have hw : Wt m c = weight (m ((c : Thread nD τ).loc main_arg1)) (m ((c : Thread nD τ).loc main_arg2)) (m ((c : Thread nD τ).loc main_arg3)) (m ((c : Thread nD τ).loc main_arg4)) := entry_w m c
  have hx : ∀ k : Fin 4096, X m c (ix2 (⟨2048 * p.val + s.val, by omega⟩ : Fin 16384) k) = m ((c : Thread nD τ).loc main_arg0) (ix3 p s k) := fun k => by
    refine (entry_x_apply m c _ k).trans (congrArg _ ?_)
    have e1 : (2048 * p.val + s.val) / 2048 = p.val := by omega
    have e2 : (2048 * p.val + s.val) % 2048 = s.val := by omega
    funext a
    match a with
    | ⟨0, _⟩ => exact Fin.ext e1
    | ⟨1, _⟩ => exact Fin.ext e2
    | ⟨2, _⟩ => rfl
  rw [hw]
  simp only [hx]

/-- The run of the idealized kernel's @main, read: the result array at x·W + bias, the arguments as launched. -/
theorem run : θ_run defs (onTc (τ := τ) (main (F := Ideal))) ⟨m, fun _ => 0, ρ⟩ (fun r => ∀ c : Dev nD,
      r.2.mem ((c.tc : Thread nD τ).loc main_v17)
        = Cert.Linear.linear (m ((c : Thread nD τ).loc main_arg0))
          (weight (m ((c : Thread nD τ).loc main_arg1)) (m ((c : Thread nD τ).loc main_arg2)) (m ((c : Thread nD τ).loc main_arg3)) (m ((c : Thread nD τ).loc main_arg4)))
          (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_v17 (Pipeline.mem_restRefs_of main_v17 (by decide) (by decide))).trans (result_eq m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c)⟩)
    (run_main m ρ)

end Cert.KernelIdeal.AccValue

end
-- ==== Proof.WeightRef.lean ====
/-
  The kernel's weight and the reference's are one term: both programs negate the same blocks and join them by the
  same five concatenations, over shapes that are the same literals. Nothing is read entry by entry.
-/
import proofs.«129058_j64347200028815_2_alg».proof.Proof.HostEntry
import proofs.«129058_j64347200028815_2_alg».proof.Proof.Gen.ReferenceIdeal.Read

set_option maxRecDepth 16384

noncomputable section

namespace Cert.KernelIdeal.Host

open Idealize.ShloMosaic

/-- The weight the region is given is the reference's joined weight of the same four blocks. -/
theorem weight_eq_ref (x1 x2 x3 x4 : (⟨Cert.KernelIdeal.S1024x1024, .f32⟩ : BufTy).Contents (Elt Ideal)) :
    weight x1 x2 x3 x4 = Cert.ReferenceIdeal.Read.val_main_v10 (F := Ideal) x1 x2 x3 x4 := by
  unfold weight Cert.ReferenceIdeal.Read.val_main_v10 Cert.ReferenceIdeal.Read.val_main_v3 Cert.ReferenceIdeal.Read.val_main_v5
    Cert.ReferenceIdeal.Read.val_main_v7 Cert.ReferenceIdeal.Read.val_main_v9 Cert.ReferenceIdeal.Read.val_main_v0
    Cert.ReferenceIdeal.Read.val_main_v1 Cert.ReferenceIdeal.Read.val_main_v2 Cert.ReferenceIdeal.Read.val_main_v4
    Cert.ReferenceIdeal.Read.val_main_v6 Cert.ReferenceIdeal.Read.val_main_v8
  rfl

end Cert.KernelIdeal.Host

end
-- ==== Proof.RefLinear.lean ====
/-
  The reference is the specification. The reference contracts the activations' last axis with the weight's first
  axis, broadcasts the bias along the two leading axes and adds it: read at (p, s, o), that is the sum over k of
  x (p, s, k) · w (k, o), plus the bias at o. The weight, assembled from its four blocks by negations and
  concatenations, is carried as one array and never opened.
-/
import proofs.«129058_j64347200028815_2_alg».proof.Proof.Gen.ReferenceIdeal.Read
import proofs.«129058_j64347200028815_2_alg».proof.Proof.Linear

noncomputable section

open scoped BigOperators

namespace Cert.ReferenceIdeal.RefLinear

open Cert.ReferenceIdeal Cert.ReferenceIdeal.Read
open Idealize.ShloMosaic Idealize.ShloMosaic.ValueIdx

/-- The contraction's left operand index at output (p, s, o) and contracted position k is (p, s, k). -/
theorem left_index (p : Fin 8) (s : Fin 2048) (o k : Fin 4096) : lidx_main_v11 (ix3 p s o) k = ix3 p s k :=
  funext fun a => Fin.ext (by match a with | ⟨0, _⟩ => rfl | ⟨1, _⟩ => rfl | ⟨2, _⟩ => rfl)
/-- Its right operand index is (k, o). -/
theorem right_index (p : Fin 8) (s : Fin 2048) (o k : Fin 4096) : ridx_main_v11 (ix3 p s o) k = ix2 k o :=
  funext fun a => Fin.ext (by match a with | ⟨0, _⟩ => rfl | ⟨1, _⟩ => rfl)
/-- The two broadcasts read the bias at the output's last coordinate. -/
theorem bias_index (p : Fin 8) (s : Fin 2048) (o : Fin 4096) : idx_main_v12 (idx_main_v13 (ix3 p s o)) = ix1 o :=
  funext fun a => Fin.ext (by match a with | ⟨0, _⟩ => rfl)

/-- The reference's result is the linear layer of the activations, the assembled weight and the bias. -/
theorem ref_is_linear (x0 : (⟨Cert.ReferenceIdeal.S8x2048x4096, .f32⟩ : BufTy).Contents (Elt Ideal))
    (x1 x2 x3 x4 : (⟨Cert.ReferenceIdeal.S1024x1024, .f32⟩ : BufTy).Contents (Elt Ideal))
    (x5 : (⟨Cert.ReferenceIdeal.S4096, .f32⟩ : BufTy).Contents (Elt Ideal)) :
    Cert.ReferenceIdeal.Read.val_main_v14 (F := Ideal) x0 x1 x2 x3 x4 x5
      = Cert.Linear.linear x0 (Cert.ReferenceIdeal.Read.val_main_v10 (F := Ideal) x1 x2 x3 x4) x5 := by
  funext i
  obtain ⟨p, s, o, rfl⟩ : ∃ (p : Fin 8) (s : Fin 2048) (o : Fin 4096), i = ix3 p s o := ⟨i 0, i 1, i 2, eq_ix3 i⟩
  rw [val_main_v14_apply, val_main_v11_apply, val_main_v13_apply, val_main_v12_apply, Cert.Linear.linear_apply]
  generalize val_main_v10 (F := Ideal) x1 x2 x3 x4 = w
  rw [bias_index]
  simp only [left_index, right_index]
  rfl

end Cert.ReferenceIdeal.RefLinear

end
-- ==== Proof.lean ====
/-
  The certificate of a quaternion ("Hamilton") linear layer: activations x : f32[8, 2048, 4096], four 1024×1024
  weight blocks and a bias of 4096. Both programs join the blocks, with signs, into one 4096×4096 weight W by the
  same eleven host operations. The kernel flattens x to 16384×4096 and runs a tiled matmul on a 16 × 2 × 8 grid:
  each 1024×2048 output block is cleared at the first of its eight steps along the contracted axis and, at every
  step, has the product of a 1024×512 activation block and a 512×2048 weight block (rounded to bf16, which changes
  nothing over the extended reals) added to it; the host then restores the batch axis and adds the bias. The
  reference is one contraction of x with W over all 4096 indices, plus the bias.

  Over the extended reals both are x·W + bias: the eight partial sums of 512 products regroup into the one sum of
  4096 products (addition of extended reals is commutative and associative: no finiteness is needed, and the
  precondition is never opened), and W is the same term on both sides, never unfolded.

  Frames: the kernel's two programs (word level and idealized) run to the end and leave their arguments as
  launched — the accumulation across grid points is tracked as what the output block holds after each point —;
  the reference's frame is its run with the result dropped. The ideal pass rewrote nothing, so there is nothing
  to preserve.
-/
import proofs.«129058_j64347200028815_2_alg».proof.Defs
import proofs.«129058_j64347200028815_2_alg».proof.Proof.Gen.Kernel
import proofs.«129058_j64347200028815_2_alg».proof.Proof.Gen.KernelIdeal
import proofs.«129058_j64347200028815_2_alg».proof.Proof.Gen.ReferenceIdeal
import proofs.«129058_j64347200028815_2_alg».proof.Proof.Gen.Pre_finite_inputs
import proofs.«129058_j64347200028815_2_alg».proof.Proof.Gen.ReferenceIdeal.Run
import proofs.«129058_j64347200028815_2_alg».proof.Proof.Gen.ReferenceIdeal.Read
import proofs.«129058_j64347200028815_2_alg».proof.Proof.AccumFrameK
import proofs.«129058_j64347200028815_2_alg».proof.Proof.AccumFrameI
import proofs.«129058_j64347200028815_2_alg».proof.Proof.KernelResult
import proofs.«129058_j64347200028815_2_alg».proof.Proof.WeightRef
import proofs.«129058_j64347200028815_2_alg».proof.Proof.RefLinear

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Acc.frame m ρ

theorem frame_ki : Cert.frame_KernelIdeal (hKernelIdeal := Cert.KernelIdeal.Gen.facts) (hPre_finite_inputs := Cert.Pre_finite_inputs.Gen.facts) :=
  fun m ρ _ => Cert.KernelIdeal.Acc.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the result array at x·W + bias of arguments that agree. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨_, Cert.KernelIdeal.AccValue.run m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v14_eq, Cert.ReferenceIdeal.RefLinear.ref_is_linear,
    (hagree c).1, (hagree c).2.1, (hagree c).2.2.1, (hagree c).2.2.2.1, (hagree c).2.2.2.2.1, (hagree c).2.2.2.2.2,
    Cert.KernelIdeal.Host.weight_eq_ref]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
